-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000x64 : Shape := ⟨2, ![640000, 64]⟩
abbrev S16x64 : Shape := ⟨2, ![16, 64]⟩
abbrev S640000 : Shape := ⟨1, ![640000]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S640000x64 : S_.BroadcastsInDim S640000x64 (![] : Fin 0 → Fin S640000x64.rank)
  reducesTo_S640000x64_S_d0_1 : S640000x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S192x64 .f32) (main_arg6 : FVec F S64 .f32) (main_arg7 : FVec F S64x64 .f32) (main_arg8 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S640000x64 .f32) (main_arg1 : FVec F S640000x64 .f32) (main_arg2 : FVec F S640000x64 .f32) (main_arg3 : FVec F S16x64 .f32) (main_arg4 : IVec S640000 32) (main_arg5 : FVec F S192x64 .f32) (main_arg6 : FVec F S64 .f32) (main_arg7 : FVec F S64x64 .f32) (main_arg8 : FVec F S64 .f32) : IVec S_ 1 :=
  let main_v0 : FVec F S640000x64 .f32 := Host.absf main_arg0
  let main_cst : FVec F S_ .f32 := constant S_ .f32 0x7F800000#32
  let main_v1 : FVec F S640000x64 .f32 := broadcastInDim S640000x64 ![] bcast_S_S640000x64 main_cst
  let main_v2 : IVec S640000x64 1 := cmpf .olt main_v0 main_v1
  let main_c : IVec S_ 1 := constantI S_ 1 1#1
  let main_v3 : IVec S_ 1 := (fun x v => Host.reduce IntOp.andi x v reducesTo_S640000x64_S_d0_1 h_S_) main_v2 main_c
  let main_v4 : FVec F S640000x64 .f32 := Host.absf main_arg1
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S640000x64 .f32 := Host.absf main_arg2
  let main_cst_2 : FVec F S_ .f32 := constant S_ .f32 0x7F800000#32
  let main_v10 : FVec F S640000x64 .f32 := broadcastInDim S640000x64 ![] bcast_S_S640000x64 main_cst_2
  let main_v11 : IVec S640000x64 1 := cmpf .olt main_v9 main_v10
  let main_c_3 : IVec S_ 1 := constantI S_ 1 1#1
  let main_v12 : IVec S_ 1 := (fun x v => Host.reduce IntOp.andi x v reducesTo_S640000x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_arg8 main_v13 main_v16
-- ==== Kernel.lean ====
abbrev S640000x64 : Shape := ⟨2, ![640000, 64]⟩
abbrev S16x64 : Shape := ⟨2, ![16, 64]⟩
abbrev S640000 : Shape := ⟨1, ![640000]⟩
abbrev S192x64 : Shape := ⟨2, ![192, 64]⟩
abbrev S64 : Shape := ⟨1, ![64]⟩
abbrev S64x64 : Shape := ⟨2, ![64, 64]⟩
abbrev S320000x128 : Shape := ⟨2, ![320000, 128]⟩
abbrev S_ : Shape := ⟨0, ![]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S4000x128 : Shape := ⟨2, ![4000, 128]⟩

abbrev nBuf : Space → Nat
  | .hbm => 45
  | .vmem => 14
  | .smem => 0
  | _ => 0

abbrev bufTy : (tb : Table) → Fin (tcTables nBuf tb) → BufTy
  | .hbm, ⟨0, _⟩ => ⟨S640000x64, .f32⟩
  | .hbm, ⟨1, _⟩ => ⟨S640000x64, .f32⟩
  | .hbm, ⟨2, _⟩ => ⟨S640000x64, .f32⟩
  | .hbm, ⟨3, _⟩ => ⟨S16x64, .f32⟩
  | .hbm, ⟨4, _⟩ => ⟨S640000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S320000x128, .f32⟩
  | .hbm, ⟨10, _⟩ => ⟨S320000x128, .f32⟩
  | .hbm, ⟨11, _⟩ => ⟨S320000x128, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x128, .f32⟩
  | .hbm, ⟨18, _⟩ => ⟨S64x128, .f32⟩
  | .hbm, ⟨19, _⟩ => ⟨S128x128, .f32⟩
  | .hbm, ⟨20, _⟩ => ⟨S128x128, .bf16⟩
  | .hbm, ⟨21, _⟩ => ⟨S_, .f32⟩
  | .hbm, ⟨22, _⟩ => ⟨S64x64, .f32⟩
  | .hbm, ⟨23, _⟩ => ⟨S64x128, .f32⟩
  | .hbm, ⟨24, _⟩ => ⟨S64x128, .f32⟩
  | .hbm, ⟨25, _⟩ => ⟨S128x128, .f32⟩
  | .hbm, ⟨26, _⟩ => ⟨S128x128, .bf16⟩
  | .hbm, ⟨27, _⟩ => ⟨S_, .f32⟩
  | .hbm, ⟨28, _⟩ => ⟨S64x64, .f32⟩
  | .hbm, ⟨29, _⟩ => ⟨S64x128, .f32⟩
  | .hbm, ⟨30, _⟩ => ⟨S64x128, .f32⟩
  | .hbm, ⟨31, _⟩ => ⟨S128x128, .f32⟩
  | .hbm, ⟨32, _⟩ => ⟨S128x128, .bf16⟩
  | .hbm, ⟨33, _⟩ => ⟨S_, .f32⟩
  | .hbm, ⟨34, _⟩ => ⟨S64x64, .f32⟩
  | .hbm, ⟨35, _⟩ => ⟨S64x128, .f32⟩
  | .hbm, ⟨36, _⟩ => ⟨S64x128, .f32⟩
  | .hbm, ⟨37, _⟩ => ⟨S128x128, .f32⟩
  | .hbm, ⟨38, _⟩ => ⟨S128x128, .bf16⟩
  | .hbm, ⟨39, _⟩ => ⟨S128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S320000x128, .f32⟩
  | .hbm, ⟨44, _⟩ => ⟨S640000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | _, _ => ⟨S640000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S640000x64_S320000x128 : S640000x64.ShapeCasts S320000x128
  slices_S192x64_S64x64_0_0 : S192x64.Slices ![0, 0] S64x64
  slices_S192x64_S64x64_64_0 : S192x64.Slices ![64, 0] S64x64
  slices_S192x64_S64x64_128_0 : S192x64.Slices ![128, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  bitsLt_bf16_f32 : FTy.bits .bf16 < FTy.bits .f32
  concatenates_S64_S64_S128_d0 : Shape.Concatenates [S64, S64] S128 0
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S320000x128_S640000x64 : S320000x128.ShapeCasts S640000x64
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S320000x128.size a
  hwx0_0 : ∀ i : grid0.Coords, EltTy.bits .f32 = 32 ∨ (Rect.block (s := S320000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S320000x128.size a
  hwx0_1 : ∀ i : grid0.Coords, EltTy.bits .f32 = 32 ∨ (Rect.block (s := S320000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S320000x128.size a
  hwx0_2 : ∀ i : grid0.Coords, EltTy.bits .f32 = 32 ∨ (Rect.block (s := S320000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S320000x128.size a
  hwx0_9 : ∀ i : grid0.Coords, EltTy.bits .f32 = 32 ∨ (Rect.block (s := S320000x128) S4000x128.size (cc0_transform_9 i) (hinb0_9 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S640000x64 : Shape := ⟨2, ![640000, 64]⟩
abbrev S16x64 : Shape := ⟨2, ![16, 64]⟩
abbrev S640000 : Shape := ⟨1, ![640000]⟩
abbrev S192x64 : Shape := ⟨2, ![192, 64]⟩
abbrev S64 : Shape := ⟨1, ![64]⟩
abbrev S64x64 : Shape := ⟨2, ![64, 64]⟩
abbrev S640000x192 : Shape := ⟨2, ![640000, 192]⟩
abbrev S1x64 : Shape := ⟨2, ![1, 64]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S640000x64, .f32⟩
  | .hbm, ⟨1, _⟩ => ⟨S640000x64, .f32⟩
  | .hbm, ⟨2, _⟩ => ⟨S640000x64, .f32⟩
  | .hbm, ⟨3, _⟩ => ⟨S16x64, .f32⟩
  | .hbm, ⟨4, _⟩ => ⟨S640000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S640000x192, .f32⟩
  | .hbm, ⟨10, _⟩ => ⟨S640000x64, .f32⟩
  | .hbm, ⟨11, _⟩ => ⟨S1x64, .f32⟩
  | .hbm, ⟨12, _⟩ => ⟨S640000x64, .f32⟩
  | .hbm, ⟨13, _⟩ => ⟨S640000x64, .f32⟩
  | .hbm, ⟨14, _⟩ => ⟨S_, .f32⟩
  | .hbm, ⟨15, _⟩ => ⟨S640000x64, .f32⟩
  | .hbm, ⟨16, _⟩ => ⟨S640000x64, .f32⟩
  | .hbm, ⟨17, _⟩ => ⟨S640000x64, .f32⟩
  | .hbm, ⟨18, _⟩ => ⟨S1x64, .f32⟩
  | .hbm, ⟨19, _⟩ => ⟨S640000x64, .f32⟩
  | .hbm, ⟨20, _⟩ => ⟨S640000x64, .f32⟩
  | .hbm, ⟨21, _⟩ => ⟨S640000x64, .f32⟩
  | _, _ => ⟨S640000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  concatenates_S640000x64_S640000x64_S640000x64_S640000x192_d1 : Shape.Concatenates [S640000x64, S640000x64, S640000x64] S640000x192 1
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S_S640000x64 : S_.BroadcastsInDim S640000x64 (![] : Fin 0 → Fin S640000x64.rank)
  dot_S640000x192_S192x64_S640000x64_1_0_0_1_n_n_wf : DotDims.WF S640000x192 S192x64 S640000x64 [1] [0] [0] [1] [] []
  dot_S640000x64_S64x64_S640000x64_1_0_0_1_n_n_wf : DotDims.WF S640000x64 S64x64 S640000x64 [1] [0] [0] [1] [] []

variable [Facts₀]

def dot_S640000x192_S192x64_S640000x64_1_0_0_1_n_n : DotDims S640000x192 S192x64 S640000x64 where
  lhsContracting := [1]
  rhsContracting := [0]
  lhsNonContracting := [0]
  rhsNonContracting := [1]
  lhsBatch := []
  rhsBatch := []
  wf := dot_S640000x192_S192x64_S640000x64_1_0_0_1_n_n_wf
def dot_S640000x64_S64x64_S640000x64_1_0_0_1_n_n : DotDims S640000x64 S64x64 S640000x64 where
  lhsContracting := [1]
  rhsContracting := [0]
  lhsNonContracting := [0]
  rhsNonContracting := [1]
  lhsBatch := []
  rhsBatch := []
  wf := dot_S640000x64_S64x64_S640000x64_1_0_0_1_n_n_wf

class Facts : Prop extends Facts₀ where

variable [Facts]
-- ==== Proof.Payload.lean ====
/-
  What the kernel body stores, read at one entry, on the extended reals.
  With x0, x1, x2 the three [4000, 128] input blocks, w3, w4, w5, w6 the four 128 x 128 weight blocks and b7, b8 the two
  [1, 128] bias rows, the body's one store holds at row p, lane l

      ( Σ_k max( ((Σ_k' x0[p,k'] w3[k',k] + Σ_k' x1[p,k'] w4[k',k]) + Σ_k' x2[p,k'] w5[k',k]) + b7[0,k], 0 ) * w6[k,l]
        + b8[0,l] ) + x2[p,l] :

  three products into a zero accumulator summed, the bias row broadcast down the rows, the maximum with zero, a fourth
  product, the second bias row, and the third input block added back. The changes of float format are the identity.
-/
import proofs.«107403_j84928683311958_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeMlp

open Cert.KernelIdeal Cert.KernelIdeal.Gen Idealize.ShloMosaic
open Idealize.ShloMosaic.ValueIdx

theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000, 128] x [128, 128] product into the zero accumulator, read at row `p`, lane `l`: the sum over the 128
    contracted lanes of the left operand's row `p` against the right operand's column `l`. -/
theorem matmul_zero_apply (lhs : FVec Ideal S4000x128 .bf16) (rhs : FVec Ideal S128x128 .bf16) (p : Fin 4000) (l : Fin 128) :
    matmul dot_S4000x128_S128x128_S4000x128_1_0_0_1_n_n none lhs rhs (constant (F := Ideal) S4000x128 .f32 0x00000000#32) (ix2 p l)
      = ∑ k : Fin 128, lhs (ix2 p k) * rhs (ix2 k l) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p l) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p l) ((contrEquiv1 dot_S4000x128_S128x128_S4000x128_1_0_0_1_n_n 128 rfl rfl).symm k) = ix2 k l := funext fun a => Fin.ext (by
    match a with
    | ⟨0, _⟩ => exact (rhs_row _ _).trans hk
    | ⟨1, _⟩ => exact rhs_col _ _)
  rw [el, er]

/-- The body's stored value at row `p`, lane `l`. -/
theorem pay_apply (x0 x1 x2 : Vec Ideal S4000x128 .f32) (w3 w4 w5 : Vec Ideal S128x128 .bf16) (b7 : Vec Ideal S1x128 .f32)
    (w6 : Vec Ideal S128x128 .bf16) (b8 : Vec Ideal S1x128 .f32) (p : Fin 4000) (l : Fin 128) :
    k0_pay1 (F := Ideal) x0 x1 x2 w3 w4 w5 b7 w6 b8 (ix2 p l)
      = ((∑ k : Fin 128,
            max ((((∑ k' : Fin 128, x0 (ix2 p k') * w3 (ix2 k' k)) + (∑ k' : Fin 128, x1 (ix2 p k') * w4 (ix2 k' k)))
                  + (∑ k' : Fin 128, x2 (ix2 p k') * w5 (ix2 k' k))) + b7 (ix2 (0 : Fin 1) k)) 0 * w6 (ix2 k l))
          + b8 (ix2 (0 : Fin 1) l)) + x2 (ix2 p l) := by
  unfold k0_pay1
  simp only [shapeCast_self]
  rw [addf_apply, addf_apply, broadcastTo_1b_ab_apply, matmul_zero_apply]
  refine congrArg (· + x2 (ix2 p l)) (congrArg (· + b8 (ix2 (0 : Fin 1) l)) (Finset.sum_congr rfl fun k _ => ?_))
  rw [truncf_apply, maximumf_apply, addf_apply, addf_apply, addf_apply, broadcastTo_1b_ab_apply,
    matmul_zero_apply, matmul_zero_apply, matmul_zero_apply, broadcast_apply]
  simp only [truncf_apply]
  exact congrArg (max _ · * _) Ideal.ofBits_zero_f32

end Cert.KernelIdeal.EdgeMlp

end
-- ==== Proof.Blocks.lean ====
/-
  From blocks to the whole packed output array.
  Grid point t (of 80) stages rows 4000 t … 4000 t + 3999 of the three packed inputs, the whole of the four weight
  matrices and the two bias rows, and writes back rows 4000 t … 4000 t + 3999 of the packed output. What it writes back
  is the body's stored value of those blocks, so entry (4000 t + p, l) of the output depends on row 4000 t + p of the
  packed inputs only: the output array after the run is ONE function of the operand arrays, row by row
  (`packedOut`), every row lying in exactly the block of the point t = row / 4000.
-/
import proofs.«107403_j84928683311958_2_alg».proof.Proof.Gen.KernelIdeal.Frame
import proofs.«107403_j84928683311958_2_alg».proof.Proof.Payload
import Idealize.ShloMosaic.Lib.Pipeline.Value

noncomputable section

namespace Cert.KernelIdeal.EdgeMlp

open Cert.KernelIdeal Cert.KernelIdeal.Gen Idealize.ShloMosaic Idealize.ShloMosaic.TcCoe Idealize.SL.Sem
open Idealize.ShloMosaic.Pipeline (Dat)
open Idealize.ShloMosaic.ValueIdx

/-- The packed output at packed row `r`, lane `l`, from the packed operand arrays: the body's stored value with the
    three input blocks replaced by row `r` of the three packed arrays. -/
def packedAt (a0 a1 a2 : FVec Ideal S320000x128 .f32) (w3 w4 w5 w6 : FVec Ideal S128x128 .bf16)
    (b7 b8 : FVec Ideal S1x128 .f32) (r : Fin 320000) (l : Fin 128) : EReal :=
  ((∑ k : Fin 128,
      max ((((∑ k' : Fin 128, a0 (ix2 r k') * w3 (ix2 k' k)) + (∑ k' : Fin 128, a1 (ix2 r k') * w4 (ix2 k' k)))
            + (∑ k' : Fin 128, a2 (ix2 r k') * w5 (ix2 k' k))) + b7 (ix2 (0 : Fin 1) k)) 0 * w6 (ix2 k l))
    + b8 (ix2 (0 : Fin 1) l)) + a2 (ix2 r l)

/-- The whole packed output array. -/
def packedOut (a0 a1 a2 : FVec Ideal S320000x128 .f32) (w3 w4 w5 w6 : FVec Ideal S128x128 .bf16)
    (b7 b8 : FVec Ideal S1x128 .f32) : FVec Ideal S320000x128 .f32 :=
  fun i => packedAt a0 a1 a2 w3 w4 w5 w6 b7 b8 (i 0) (i 1)

variable (m : (ℓ : Loc nD τ sig) → Buf (Elt Ideal) ℓ)

theorem zero_offsets : (![0, 0] : Fin 2 → Nat) = fun _ => 0 := funext fun a => by fin_cases a <;> rfl

/-- The printed index maps over the 80 grid points: the streamed windows (0, 1, 2 and the output 9) sit at block row `t`,
    block column 0; the resident windows (3 … 8) at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem point_lt (t : Fin cfg0.N) : t.val < 80 := N_0 ▸ t.isLt

/-! ## Each input block read where it lies in its array -/

theorem blk_src (c : Dev nD) (t : Fin cfg0.N) (p : Fin 4000) (k : Fin 128) :
    iblk m c 0 t (ix2 p k)
      = (V m c main_v0 : FVec Ideal S320000x128 .f32) (ix2 (⟨t.val * 4000 + p.val, by have := point_lt t; omega⟩ : Fin 320000) k) := by
  obtain ⟨e0, e1, -⟩ := idx_facts t
  show V m c main_v0 (((cfg0.win 0).blk t).view.emb (ix2 p k)) = V m c main_v0 (ix2 _ k)
  refine congrArg (V m c main_v0) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

theorem blk_dest (c : Dev nD) (t : Fin cfg0.N) (p : Fin 4000) (k : Fin 128) :
    iblk m c 1 t (ix2 p k)
      = (V m c main_v1 : FVec Ideal S320000x128 .f32) (ix2 (⟨t.val * 4000 + p.val, by have := point_lt t; omega⟩ : Fin 320000) k) := by
  obtain ⟨-, -, e0, e1, -⟩ := idx_facts t
  show V m c main_v1 (((cfg0.win 1).blk t).view.emb (ix2 p k)) = V m c main_v1 (ix2 _ k)
  refine congrArg (V m c main_v1) (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * k.val = k.val; omega

theorem blk_edge (c : Dev nD) (t : Fin cfg0.N) (p : Fin 4000) (k : Fin 128) :
    iblk m c 2 t (ix2 p k)
      = (V m c main_v2 : FVec Ideal S320000x128 .f32) (ix2 (⟨t.val * 4000 + p.val, by have := point_lt t; omega⟩ : Fin 320000) k) := by
  obtain ⟨-, -, -, -, e0, e1, -⟩ := idx_facts t
  show V m c main_v2 (((cfg0.win 2).blk t).view.emb (ix2 p k)) = V m c main_v2 (ix2 _ k)
  refine congrArg (V m c main_v2) (funext fun a => Fin.ext ?_)
  match a with
  | ⟨0, _⟩ => show win0_2.index t (0 : Fin 2) * 4000 + 1 * p.val = t.val * 4000 + p.val; omega
  | ⟨1, _⟩ => show win0_2.index t (1 : Fin 2) * 128 + 1 * k.val = k.val; omega

theorem blk_w3 (c : Dev nD) (t : Fin cfg0.N) (p k : Fin 128) :
    iblk m c 3 t (ix2 p k) = (V m c main_v10 : FVec Ideal S128x128 .bf16) (ix2 p k) := by
  obtain ⟨-, -, -, -, -, -, -, -, e0, e1, -⟩ := idx_facts t
  show V m c main_v10 (((cfg0.win 3).blk t).view.emb (ix2 p k)) = V m c main_v10 (ix2 p k)
  refine congrArg (V m c main_v10) (funext fun a => Fin.ext ?_)
  match a with
  | ⟨0, _⟩ => show win0_3.index t (0 : Fin 2) * 128 + 1 * p.val = p.val; omega
  | ⟨1, _⟩ => show win0_3.index t (1 : Fin 2) * 128 + 1 * k.val = k.val; omega

theorem blk_w4 (c : Dev nD) (t : Fin cfg0.N) (p k : Fin 128) :
    iblk m c 4 t (ix2 p k) = (V m c main_v15 : FVec Ideal S128x128 .bf16) (ix2 p k) := by
  obtain ⟨-, -, -, -, -, -, -, -, -, -, e0, e1, -⟩ := idx_facts t
  show V m c main_v15 (((cfg0.win 4).blk t).view.emb (ix2 p k)) = V m c main_v15 (ix2 p k)
  refine congrArg (V m c main_v15) (funext fun a => Fin.ext ?_)
  match a with
  | ⟨0, _⟩ => show win0_4.index t (0 : Fin 2) * 128 + 1 * p.val = p.val; omega
  | ⟨1, _⟩ => show win0_4.index t (1 : Fin 2) * 128 + 1 * k.val = k.val; omega

theorem blk_w5 (c : Dev nD) (t : Fin cfg0.N) (p k : Fin 128) :
    iblk m c 5 t (ix2 p k) = (V m c main_v20 : FVec Ideal S128x128 .bf16) (ix2 p k) := by
  obtain ⟨-, -, -, -, -, -, -, -, -, -, -, -, e0, e1, -⟩ := idx_facts t
  show V m c main_v20 (((cfg0.win 5).blk t).view.emb (ix2 p k)) = V m c main_v20 (ix2 p k)
  refine congrArg (V m c main_v20) (funext fun a => Fin.ext ?_)
  match a with
  | ⟨0, _⟩ => show win0_5.index t (0 : Fin 2) * 128 + 1 * p.val = p.val; omega
  | ⟨1, _⟩ => show win0_5.index t (1 : Fin 2) * 128 + 1 * k.val = k.val; omega

theorem blk_w6 (c : Dev nD) (t : Fin cfg0.N) (p k : Fin 128) :
    iblk m c 6 t (ix2 p k) = (V m c main_v25 : FVec Ideal S128x128 .bf16) (ix2 p k) := by
  obtain ⟨-, -, -, -, -, -, -, -, -, -, -, -, -, -, e0, e1, -⟩ := idx_facts t
  show V m c main_v25 (((cfg0.win 6).blk t).view.emb (ix2 p k)) = V m c main_v25 (ix2 p k)
  refine congrArg (V m c main_v25) (funext fun a => Fin.ext ?_)
  match a with
  | ⟨0, _⟩ => show win0_6.index t (0 : Fin 2) * 128 + 1 * p.val = p.val; omega
  | ⟨1, _⟩ => show win0_6.index t (1 : Fin 2) * 128 + 1 * k.val = k.val; omega

theorem blk_b7 (c : Dev nD) (t : Fin cfg0.N) (u : Fin 1) (k : Fin 128) :
    iblk m c 7 t (ix2 u k) = (V m c main_v27 : FVec Ideal S1x128 .f32) (ix2 u k) := by
  obtain ⟨-, -, -, -, -, -, -, -, -, -, -, -, -, -, -, -, e0, e1, -⟩ := idx_facts t
  show V m c main_v27 (((cfg0.win 7).blk t).view.emb (ix2 u k)) = V m c main_v27 (ix2 u k)
  refine congrArg (V m c main_v27) (funext fun a => Fin.ext ?_)
  match a with
  | ⟨0, _⟩ => show win0_7.index t (0 : Fin 2) * 1 + 1 * u.val = u.val; omega
  | ⟨1, _⟩ => show win0_7.index t (1 : Fin 2) * 128 + 1 * k.val = k.val; omega

theorem blk_b8 (c : Dev nD) (t : Fin cfg0.N) (u : Fin 1) (k : Fin 128) :
    iblk m c 8 t (ix2 u k) = (V m c main_v29 : FVec Ideal S1x128 .f32) (ix2 u k) := by
  obtain ⟨-, -, -, -, -, -, -, -, -, -, -, -, -, -, -, -, -, -, e0, e1⟩ := idx_facts t
  show V m c main_v29 (((cfg0.win 8).blk t).view.emb (ix2 u k)) = V m c main_v29 (ix2 u k)
  refine congrArg (V m c main_v29) (funext fun a => Fin.ext ?_)
  match a with
  | ⟨0, _⟩ => show win0_8.index t (0 : Fin 2) * 1 + 1 * u.val = u.val; omega
  | ⟨1, _⟩ => show win0_8.index t (1 : Fin 2) * 128 + 1 * k.val = k.val; omega

/-! ## What a point writes back -/

/-- Point `t` writes back block `t` of `packedOut` of the operand arrays as the region finds them. -/
theorem flushed_eq (c : Dev nD) (t : Fin cfg0.N) :
    (dats m 0 c).flushed 9 t
      = ((cfg0.win 9).blk t).view.read (Elt Ideal)
          (packedOut (V m c main_v0) (V m c main_v1) (V m c main_v2) (V m c main_v10) (V m c main_v15) (V m c main_v20)
            (V m c main_v25) (V m c main_v27) (V m c main_v29)) := by
  show (cfg0.win 9).cut (grid0.coords t) ((dats m 0 c).after 9 t) = _
  rw [after0_9]
  unfold out0_9
  rw [View.canon_unit_zero zero_offsets]
  simp only [View.ld_unit_zero (S := S4000x128) zero_offsets, View.ld_unit_zero (S := S128x128) zero_offsets,
    View.ld_unit_zero (S := S1x128) zero_offsets]
  obtain ⟨-, -, -, -, -, -, e0, e1, -⟩ := idx_facts t
  funext y
  obtain ⟨p, l, rfl⟩ : ∃ (p : Fin 4000) (l : Fin 128), y = ix2 p l := ⟨y 0, y 1, eq_ix2 y⟩
  have hr : ((cfg0.win 9).blk t).view.emb (ix2 p l)
      = ix2 (⟨t.val * 4000 + p.val, by have := point_lt t; omega⟩ : Fin 320000) l := funext fun a => Fin.ext (by
    match a with
    | ⟨0, _⟩ => show win0_9.index t (0 : Fin 2) * 4000 + 1 * p.val = t.val * 4000 + p.val; omega
    | ⟨1, _⟩ => show win0_9.index t (1 : Fin 2) * 128 + 1 * l.val = l.val; omega)
  refine (pay_apply (iblk m c 0 t) (iblk m c 1 t) (iblk m c 2 t) (iblk m c 3 t) (iblk m c 4 t) (iblk m c 5 t)
    (iblk m c 7 t) (iblk m c 6 t) (iblk m c 8 t) p l).trans ?_
  show _ = packedOut _ _ _ _ _ _ _ _ _ (((cfg0.win 9).blk t).view.emb (ix2 p l))
  rw [hr]
  show _ = packedAt _ _ _ _ _ _ _ _ _ (⟨t.val * 4000 + p.val, by have := point_lt t; omega⟩ : Fin 320000) l
  unfold packedAt
  simp only [blk_src m c t, blk_dest m c t, blk_edge m c t, blk_w3 m c t, blk_w4 m c t, blk_w5 m c t, blk_w6 m c t,
    blk_b7 m c t, blk_b8 m c t]

/-! ## The cover, and the array after the run -/

theorem mem_blk (t : Fin cfg0.N) (i : S320000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v30).slice (win0_9.rect t)).set ↔ _
  rw [View.set_slice_whole, Rect.mem_set_unit]
  exact Iff.rfl

/-- Every row lies in the block of the point `row / 4000`. -/
theorem cover (i : S320000x128.Idx) :
    ∃ t : Fin cfg0.N, (cfg0.win 9).flush t = true ∧ i ∈ ((cfg0.win 9).blk t).view.set := by
  have hi0 : (i 0).val < 320000 := (i 0).isLt
  have hi1 : (i 1).val < 128 := (i 1).isLt
  have hN : (i 0).val / 4000 < cfg0.N := by rw [show cfg0.N = 80 from N_0]; omega
  obtain ⟨-, -, -, -, -, -, e0, e1, -⟩ := idx_facts ⟨(i 0).val / 4000, hN⟩
  refine ⟨⟨(i 0).val / 4000, hN⟩, flush0_9 _, ?_⟩
  rw [mem_blk]
  intro a
  match a with
  | ⟨0, _⟩ =>
    show win0_9.index ⟨(i 0).val / 4000, hN⟩ (0 : Fin 2) * 4000 ≤ (i 0).val
      ∧ (i 0).val < win0_9.index ⟨(i 0).val / 4000, hN⟩ (0 : Fin 2) * 4000 + 4000
    have e0' : win0_9.index ⟨(i 0).val / 4000, hN⟩ (0 : Fin 2) = (i 0).val / 4000 := e0
    omega
  | ⟨1, _⟩ =>
    show win0_9.index ⟨(i 0).val / 4000, hN⟩ (1 : Fin 2) * 128 ≤ (i 1).val
      ∧ (i 1).val < win0_9.index ⟨(i 0).val / 4000, hN⟩ (1 : Fin 2) * 128 + 128
    omega

/-- The packed output array after the run. -/
theorem final (c : Dev nD) :
    (dats m 0 c).arrAt 9 cfg0.N
      = packedOut (V m c main_v0) (V m c main_v1) (V m c main_v2) (V m c main_v10) (V m c main_v15) (V m c main_v20)
          (V m c main_v25) (V m c main_v27) (V m c main_v29) :=
  (dats m 0 c).arrAt_eq_of_cover 9 _ (fun t _ => flushed_eq m c t) cover

end Cert.KernelIdeal.EdgeMlp

end
-- ==== Proof.HostPrefix.lean ====
/-
  What the pallas_call's operands hold when the region is entered, as pure terms of the argument arrays.
  The host lines before the call build, from src, dest, edge_attr : [640000, 64], W1 : [192, 64], b1, W2 : [64, 64], b2:
    * three packed arrays [320000, 128]: the row-major reshape, so that packed row r holds edges 2r and 2r + 1 side by side;
    * four 128 x 128 matrices, each with one 64 x 64 matrix (the three row stretches of W1, and W2) on BOTH diagonal blocks
      and zeros off them;
    * two rows [1, 128]: b1 twice and b2 twice.
-/
import proofs.«107403_j84928683311958_2_alg».proof.Proof.Gen.KernelIdeal.Frame
import Idealize.ShloMosaic.Lib.StableHlo.Run
import Idealize.ShloMosaic.PureOps.Ideal
import Idealize.ShloMosaic.Lib.ValueIdx

noncomputable section

namespace Cert.KernelIdeal.EdgeMlp

open Cert.KernelIdeal Cert.KernelIdeal.Gen Idealize.ShloMosaic Idealize.ShloMosaic.TcCoe Idealize.SL.Sem Idealize.ShloMosaic.StableHlo
open Idealize.ShloMosaic.ValueIdx

/-- The 64 x 64 zero matrix the host splats. -/
abbrev zeros64 : FVec Ideal S64x64 .f32 :=
  broadcastInDim S64x64 ![] bcast_S_S64x64 (constant (F := Ideal) S_ .f32 0x00000000#32)

/-- The 128 x 128 matrix with `A` on both diagonal 64 x 64 blocks and zeros off them, as the host lines assemble it:
    [A | 0] over [0 | A], then the change of float format (the identity on the extended reals). -/
def blockDiag (A : FVec Ideal S64x64 .f32) : FVec Ideal S128x128 .bf16 :=
  truncf (F := Ideal) .bf16 (concatenate S128x128 0
    [⟨S64x128, concatenate S64x128 1 [⟨S64x64, A⟩, ⟨S64x64, zeros64⟩] concatenates_S64x64_S64x64_S64x128_d1⟩,
     ⟨S64x128, concatenate S64x128 1 [⟨S64x64, zeros64⟩, ⟨S64x64, A⟩] concatenates_S64x64_S64x64_S64x128_d1⟩]
    concatenates_S64x128_S64x128_S128x128_d0) bitsLt_bf16_f32

/-- A bias vector of 64 entries laid twice along one row of 128 lanes. -/
def twiceRow (b : FVec Ideal S64 .f32) : FVec Ideal S1x128 .f32 :=
  shapeCast S1x128 (concatenate S128 0 [⟨S64, b⟩, ⟨S64, b⟩] concatenates_S64_S64_S128_d0) shapeCasts_S128_S1x128

/-- Two consecutive rows of 64 packed into one row of 128 lanes: the row-major reshape [640000, 64] → [320000, 128]. -/
def packRows (x : FVec Ideal S640000x64 .f32) : FVec Ideal S320000x128 .f32 :=
  shapeCast S320000x128 x shapeCasts_S640000x64_S320000x128

variable (m : (ℓ : Loc nD τ sig) → Buf (Elt Ideal) ℓ)

set_option maxHeartbeats 1000000 in
theorem V_packed_src (c : Dev nD) :
    (V m c main_v0 : (⟨S320000x128, .f32⟩ : BufTy).Contents (Elt Ideal)) = packRows (m ((c : Thread nD τ).loc main_arg0)) := by
  show StableHlo.after hostOps0 (fun b => m (c, b)) (Proc.devRef .tc main_v0) = _
  after_results
  rfl

set_option maxHeartbeats 1000000 in
theorem V_packed_dest (c : Dev nD) :
    (V m c main_v1 : (⟨S320000x128, .f32⟩ : BufTy).Contents (Elt Ideal)) = packRows (m ((c : Thread nD τ).loc main_arg1)) := by
  show StableHlo.after hostOps0 (fun b => m (c, b)) (Proc.devRef .tc main_v1) = _
  after_results
  rfl

set_option maxHeartbeats 1000000 in
theorem V_packed_edge (c : Dev nD) :
    (V m c main_v2 : (⟨S320000x128, .f32⟩ : BufTy).Contents (Elt Ideal)) = packRows (m ((c : Thread nD τ).loc main_arg2)) := by
  show StableHlo.after hostOps0 (fun b => m (c, b)) (Proc.devRef .tc main_v2) = _
  after_results
  rfl

set_option maxHeartbeats 1000000 in
theorem V_w1_src (c : Dev nD) :
    (V m c main_v10 : (⟨S128x128, .bf16⟩ : BufTy).Contents (Elt Ideal))
      = blockDiag (extractStridedSlice S64x64 ![0, 0] (m ((c : Thread nD τ).loc main_arg5)) slices_S192x64_S64x64_0_0) := by
  show StableHlo.after hostOps0 (fun b => m (c, b)) (Proc.devRef .tc main_v10) = _
  after_results
  rfl

set_option maxHeartbeats 1000000 in
theorem V_w1_dest (c : Dev nD) :
    (V m c main_v15 : (⟨S128x128, .bf16⟩ : BufTy).Contents (Elt Ideal))
      = blockDiag (extractStridedSlice S64x64 ![64, 0] (m ((c : Thread nD τ).loc main_arg5)) slices_S192x64_S64x64_64_0) := by
  show StableHlo.after hostOps0 (fun b => m (c, b)) (Proc.devRef .tc main_v15) = _
  after_results
  rfl

set_option maxHeartbeats 1000000 in
theorem V_w1_edge (c : Dev nD) :
    (V m c main_v20 : (⟨S128x128, .bf16⟩ : BufTy).Contents (Elt Ideal))
      = blockDiag (extractStridedSlice S64x64 ![128, 0] (m ((c : Thread nD τ).loc main_arg5)) slices_S192x64_S64x64_128_0) := by
  show StableHlo.after hostOps0 (fun b => m (c, b)) (Proc.devRef .tc main_v20) = _
  after_results
  rfl

set_option maxHeartbeats 1000000 in
theorem V_w2 (c : Dev nD) :
    (V m c main_v25 : (⟨S128x128, .bf16⟩ : BufTy).Contents (Elt Ideal)) = blockDiag (m ((c : Thread nD τ).loc main_arg7)) := by
  show StableHlo.after hostOps0 (fun b => m (c, b)) (Proc.devRef .tc main_v25) = _
  after_results
  rfl

set_option maxHeartbeats 1000000 in
theorem V_b1 (c : Dev nD) :
    (V m c main_v27 : (⟨S1x128, .f32⟩ : BufTy).Contents (Elt Ideal)) = twiceRow (m ((c : Thread nD τ).loc main_arg6)) := by
  show StableHlo.after hostOps0 (fun b => m (c, b)) (Proc.devRef .tc main_v27) = _
  after_results
  rfl

set_option maxHeartbeats 1000000 in
theorem V_b2 (c : Dev nD) :
    (V m c main_v29 : (⟨S1x128, .f32⟩ : BufTy).Contents (Elt Ideal)) = twiceRow (m ((c : Thread nD τ).loc main_arg8)) := by
  show StableHlo.after hostOps0 (fun b => m (c, b)) (Proc.devRef .tc main_v29) = _
  after_results
  rfl

end Cert.KernelIdeal.EdgeMlp

end
-- ==== Proof.KernelRun.lean ====
/-
  The kernel program's run, read as a value.
  After the region the packed output array [320000, 128] holds `packedOut` of the operands; the one host line after the
  region reshapes it row-major to [640000, 64], which is the program's result.
-/
import proofs.«107403_j84928683311958_2_alg».proof.Proof.Blocks
import proofs.«107403_j84928683311958_2_alg».proof.Proof.HostPrefix
import Idealize.ShloMosaic.Lib.StableHlo.Run

noncomputable section

namespace Cert.KernelIdeal.EdgeMlp

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx

variable (m : (ℓ : Loc nD τ sig) → Buf (Elt Ideal) ℓ) (ρ : Dev nD → PrngReg)

/-- The packed output as a function of the seven argument arrays the computation reads. -/
def packedOfArgs (src dest attr : FVec Ideal S640000x64 .f32) (W1 : FVec Ideal S192x64 .f32) (b1 : FVec Ideal S64 .f32)
    (W2 : FVec Ideal S64x64 .f32) (b2 : FVec Ideal S64 .f32) : FVec Ideal S320000x128 .f32 :=
  packedOut (packRows src) (packRows dest) (packRows attr)
    (blockDiag (extractStridedSlice S64x64 ![0, 0] W1 slices_S192x64_S64x64_0_0))
    (blockDiag (extractStridedSlice S64x64 ![64, 0] W1 slices_S192x64_S64x64_64_0))
    (blockDiag (extractStridedSlice S64x64 ![128, 0] W1 slices_S192x64_S64x64_128_0))
    (blockDiag W2) (twiceRow b1) (twiceRow b2)

/-- The packed output array after the run, from the arguments as launched. -/
theorem final_of_args (c : Dev nD) :
    (dats m 0 c).arrAt 9 cfg0.N
      = packedOfArgs (m ((c : Thread nD τ).loc main_arg0)) (m ((c : Thread nD τ).loc main_arg1)) (m ((c : Thread nD τ).loc main_arg2))
          (m ((c : Thread nD τ).loc main_arg5)) (m ((c : Thread nD τ).loc main_arg6)) (m ((c : Thread nD τ).loc main_arg7))
          (m ((c : Thread nD τ).loc main_arg8)) := by
  rw [final, V_packed_src, V_packed_dest, V_packed_edge, V_w1_src, V_w1_dest, V_w1_edge, V_w2, V_b1, V_b2]
  rfl

set_option maxHeartbeats 1000000 in
/-- The program's result after the frame run: the packed output reshaped. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v31)
      = shapeCast S640000x64 (packedOfArgs (m ((c : Thread nD τ).loc main_arg0)) (m ((c : Thread nD τ).loc main_arg1)) (m ((c : Thread nD τ).loc main_arg2))
          (m ((c : Thread nD τ).loc main_arg5)) (m ((c : Thread nD τ).loc main_arg6)) (m ((c : Thread nD τ).loc main_arg7))
          (m ((c : Thread nD τ).loc main_arg8))) shapeCasts_S320000x128_S640000x64 := by
  refine ((h c).2 main_v31 (Pipeline.mem_restRefs_of main_v31 (by decide) (by decide))).trans ?_
  unfold Pipeline.afterTail₀
  show StableHlo.after hostOps1 _ (Proc.devRef .tc main_v31) = _
  after_results
  have e : Pipeline.withArrays (cfgs 0).spec c (V0 m c) (fun w => (dats m 0 c).arrAt w (cfgs 0).N) (Proc.devRef .tc main_v30)
      = packedOfArgs (m ((c : Thread nD τ).loc main_arg0)) (m ((c : Thread nD τ).loc main_arg1)) (m ((c : Thread nD τ).loc main_arg2))
          (m ((c : Thread nD τ).loc main_arg5)) (m ((c : Thread nD τ).loc main_arg6)) (m ((c : Thread nD τ).loc main_arg7))
          (m ((c : Thread nD τ).loc main_arg8)) :=
    (Pipeline.withArrays_arr spec0 launch0.win.arr_inj c (V0 m c) (fun w => (dats m 0 c).arrAt w cfg0.N) 9).trans (final_of_args m c)
  rw [e]
  rfl

end Cert.KernelIdeal.EdgeMlp

end
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.PrefixRead.lean ====
/-
  The pallas_call's operands read at an entry.
    * A packed array at row r, lane h * 64 + j is the unpacked array at row 2r + h, column j.
    * A block-diagonal weight matrix at (h * 64 + k, h' * 64 + j) is the 64 x 64 matrix at (k, j) when h = h', and 0 otherwise.
    * A doubled bias row at lane h * 64 + j is the bias at j.
-/
import proofs.«107403_j84928683311958_2_alg».proof.Proof.HostPrefix
import proofs.«107403_j84928683311958_2_alg».proof.Proof.LibConcatRead
import Idealize.ShloMosaic.Lib.ValueLayout
import Idealize.ShloMosaic.PureOps.Ideal.Laws

noncomputable section

namespace Cert.KernelIdeal.EdgeMlp

open Cert.KernelIdeal Cert.KernelIdeal.Gen Idealize.ShloMosaic
open Idealize.ShloMosaic.ValueIdx

/-- Packed row `r` holds rows `2r` and `2r + 1` side by side: row-major positions agree, (2r + h) * 64 + j = r * 128 + (h * 64 + j). -/
theorem packRows_apply (x : FVec Ideal S640000x64 .f32) (r : Fin 320000) (h : Fin 2) (j : Fin 64) :
    packRows x (ix2 r (⟨h.val * 64 + j.val, by omega⟩ : Fin 128)) = x (ix2 (⟨2 * r.val + h.val, by omega⟩ : Fin 640000) j) := by
  unfold packRows
  refine shapeCast_apply x _ _ _ ?_
  rw [Shape.rowMajor_val_two, Shape.rowMajor_val_two]
  show (2 * r.val + h.val) * 64 + j.val = r.val * 128 + (h.val * 64 + j.val)
  omega

/-- The splatted zero matrix is the extended real 0 everywhere. -/
theorem zeros64_apply (i : S64x64.Idx) : zeros64 i = 0 :=
  (broadcastInDim_apply _ bcast_S_S64x64 (constant (F := Ideal) S_ .f32 0x00000000#32) i (fun a => a.elim0) (fun a => a.elim0)).trans
    Ideal.ofBits_zero_f32

/-- On a diagonal block the block-diagonal matrix is `A`. -/
theorem blockDiag_diag (A : FVec Ideal S64x64 .f32) (h : Fin 2) (k j : Fin 64) :
    blockDiag A (ix2 (⟨h.val * 64 + k.val, by omega⟩ : Fin 128) (⟨h.val * 64 + j.val, by omega⟩ : Fin 128)) = A (ix2 k j) := by
  unfold blockDiag
  rw [truncf_apply]
  by_cases hh : h = 0
  · subst hh
    refine (concat_rows_top _ _ _ k _ _ (by show 0 * 64 + k.val = k.val; omega)).trans ?_
    exact concat_cols_left _ _ _ k j _ (by show 0 * 64 + j.val = j.val; omega)
  · have h1 : h = 1 := by omega
    subst h1
    refine (concat_rows_bottom _ _ _ k _ _ (by show 1 * 64 + k.val = 64 + k.val; omega)).trans ?_
    exact concat_cols_right _ _ _ k j _ (by show 1 * 64 + j.val = 64 + j.val; omega)

/-- Off the diagonal blocks it is 0. -/
theorem blockDiag_off (A : FVec Ideal S64x64 .f32) (h h' : Fin 2) (k j : Fin 64) (hne : h ≠ h') :
    blockDiag A (ix2 (⟨h.val * 64 + k.val, by omega⟩ : Fin 128) (⟨h'.val * 64 + j.val, by omega⟩ : Fin 128)) = 0 := by
  unfold blockDiag
  rw [truncf_apply]
  by_cases hh : h = 0
  · subst hh
    have h1 : h' = 1 := by omega
    subst h1
    refine (concat_rows_top _ _ _ k _ _ (by show 0 * 64 + k.val = k.val; omega)).trans ?_
    refine (concat_cols_right _ _ _ k j _ (by show 1 * 64 + j.val = 64 + j.val; omega)).trans ?_
    exact zeros64_apply _
  · have h1 : h = 1 := by omega
    subst h1
    have h0 : h' = 0 := by omega
    subst h0
    refine (concat_rows_bottom _ _ _ k _ _ (by show 1 * 64 + k.val = 64 + k.val; omega)).trans ?_
    refine (concat_cols_left _ _ _ k j _ (by show 0 * 64 + j.val = j.val; omega)).trans ?_
    exact zeros64_apply _

/-- The doubled bias row at lane `h * 64 + j` is the bias at `j`. -/
theorem twiceRow_apply (b : FVec Ideal S64 .f32) (u : Fin 1) (h : Fin 2) (j : Fin 64) :
    twiceRow b (ix2 u (⟨h.val * 64 + j.val, by omega⟩ : Fin 128)) = b (ix1 j) := by
  unfold twiceRow
  refine (shapeCast_a_1a_apply _ _ u _).trans ?_
  by_cases hh : h = 0
  · subst hh
    exact concat_vec_first _ _ _ j _ (by show 0 * 64 + j.val = j.val; omega)
  · have h1 : h = 1 := by omega
    subst h1
    exact concat_vec_second _ _ _ j _ (by show 1 * 64 + j.val = 64 + j.val; omega)

end Cert.KernelIdeal.EdgeMlp

end
-- ==== Proof.LibBlockDiagSums.lean ====
/-
  Two facts about finite sums of extended reals. Neither needs finiteness: they use only that addition on the
  extended reals is associative and commutative with unit 0, and that x * 0 = 0 for EVERY x, the infinities included.

  * A contraction over 128 = 64 + 64 lanes against a matrix that is zero off its two diagonal 64 x 64 blocks and
    carries ONE matrix A on both: lane l = h * 64 + j of the product only sees the h-th half of the row, against A.
  * A contraction over 192 = 64 + 64 + 64 coordinates splits into its three consecutive stretches of 64, the first
    two grouped first.
-/
import Mathlib.Algebra.BigOperators.Fin
import Mathlib.Data.EReal.Basic

namespace BlockDiagSums

/-- A row x of 128 lanes against a matrix B whose diagonal 64 x 64 blocks are both A and whose off-diagonal blocks
    vanish: the product's lane h * 64 + j is the h-th half of the row against column j of A. -/
theorem sum_mul_blockDiag (x : Fin 128 → EReal) (B : Fin 128 → Fin 128 → EReal) (A : Fin 64 → Fin 64 → EReal)
    (hdiag : ∀ (h : Fin 2) (k j : Fin 64), B ⟨h.val * 64 + k.val, by omega⟩ ⟨h.val * 64 + j.val, by omega⟩ = A k j)
    (hoff : ∀ (h h' : Fin 2) (k j : Fin 64), h ≠ h' → B ⟨h.val * 64 + k.val, by omega⟩ ⟨h'.val * 64 + j.val, by omega⟩ = 0)
    (h : Fin 2) (j : Fin 64) :
    ∑ k : Fin 128, x k * B k ⟨h.val * 64 + j.val, by omega⟩
      = ∑ k : Fin 64, x ⟨h.val * 64 + k.val, by omega⟩ * A k j := by
  have split := Fin.sum_univ_add (a := 64) (b := 64) (fun k : Fin 128 => x k * B k ⟨h.val * 64 + j.val, by omega⟩)
  refine split.trans ?_
  have e0 : ∀ k : Fin 64, (Fin.castAdd 64 k : Fin 128) = ⟨(0 : Fin 2).val * 64 + k.val, by omega⟩ :=
    fun k => Fin.ext (by show k.val = 0 * 64 + k.val; omega)
  have e1 : ∀ k : Fin 64, (Fin.natAdd 64 k : Fin 128) = ⟨(1 : Fin 2).val * 64 + k.val, by omega⟩ :=
    fun k => Fin.ext (by show 64 + k.val = 1 * 64 + k.val; omega)
  simp only [e0, e1]
  by_cases hh : h = 0
  · subst hh
    refine (congrArg₂ (· + ·) (Finset.sum_congr rfl fun k _ => ?_) (Finset.sum_eq_zero fun k _ => ?_)).trans (add_zero _)
    · rw [hdiag (0 : Fin 2) k j]
    · rw [hoff (1 : Fin 2) (0 : Fin 2) k j (by decide), mul_zero]
  · have h1 : h = 1 := by omega
    subst h1
    refine (congrArg₂ (· + ·) (Finset.sum_eq_zero fun k _ => ?_) (Finset.sum_congr rfl fun k _ => ?_)).trans (zero_add _)
    · rw [hoff (0 : Fin 2) (1 : Fin 2) k j (by decide), mul_zero]
    · rw [hdiag (1 : Fin 2) k j]

/-- A sum over 192 coordinates is the sum over its three consecutive stretches of 64, grouped (first + second) + third. -/
theorem sum_three_stretches (f : Fin 192 → EReal) :
    ∑ k : Fin 192, f k
      = (∑ k : Fin 64, f ⟨k.val, by omega⟩ + ∑ k : Fin 64, f ⟨64 + k.val, by omega⟩) + ∑ k : Fin 64, f ⟨128 + k.val, by omega⟩ := by
  have s1 := Fin.sum_univ_add (a := 128) (b := 64) f
  have s2 := Fin.sum_univ_add (a := 64) (b := 64) (fun k : Fin 128 => f (Fin.castAdd 64 k))
  rw [s1, s2]
  rfl

end BlockDiagSums
-- ==== Proof.Spec.lean ====
/-
  The edge model, per edge and output feature, on the extended reals.
  For edge e with feature rows src[e], dest[e], attr[e] (64 entries each), weights W1 : [192, 64], W2 : [64, 64] and
  biases b1, b2:

      hidden[k] = max( ((Σ_k' src[e,k'] W1[k',k] + Σ_k' dest[e,k'] W1[64+k',k]) + Σ_k' attr[e,k'] W1[128+k',k]) + b1[k], 0 )
      out[e,j]  = ( Σ_k hidden[k] W2[k,j] + b2[j] ) + attr[e,j].

  The concatenation [src | dest | attr] against W1 is written as its three stretches of 64 rows of W1.
-/
import Idealize.ShloMosaic.PureOps.Ideal
import Idealize.ShloMosaic.Lib.ValueIdx

noncomputable section

namespace EdgeModel

open Idealize.ShloMosaic Idealize.ShloMosaic.ValueIdx

/-- The edge model's output at edge `e`, feature `j`. -/
def out (src dest attr : (⟨2, ![640000, 64]⟩ : Shape).Idx → EReal) (W1 : (⟨2, ![192, 64]⟩ : Shape).Idx → EReal)
    (b1 : (⟨1, ![64]⟩ : Shape).Idx → EReal) (W2 : (⟨2, ![64, 64]⟩ : Shape).Idx → EReal) (b2 : (⟨1, ![64]⟩ : Shape).Idx → EReal)
    (e : Fin 640000) (j : Fin 64) : EReal :=
  ((∑ k : Fin 64,
      max ((((∑ k' : Fin 64, src (ix2 e k') * W1 (ix2 (⟨k'.val, by omega⟩ : Fin 192) k))
              + (∑ k' : Fin 64, dest (ix2 e k') * W1 (ix2 (⟨64 + k'.val, by omega⟩ : Fin 192) k)))
            + (∑ k' : Fin 64, attr (ix2 e k') * W1 (ix2 (⟨128 + k'.val, by omega⟩ : Fin 192) k))) + b1 (ix1 k)) 0
        * W2 (ix2 k j))
    + b2 (ix1 j)) + attr (ix2 e j)

end EdgeModel

end
-- ==== Proof.KernelSide.lean ====
/-
  The packed output is the edge model.
  Lane h * 64 + j of packed row r belongs to edge e = 2r + h. Against a block-diagonal matrix a packed row contributes
  only its h-th half to that lane, and the h-th half of packed row r is row e of the unpacked array; the doubled bias
  rows give b1 and b2 at the feature; the residual is attr[e, j]. So the body's four products over 128 lanes are the edge
  model's sums over 64, the three first-layer products being the three stretches of 64 rows of W1.
-/
import proofs.«107403_j84928683311958_2_alg».proof.Proof.KernelRun
import proofs.«107403_j84928683311958_2_alg».proof.Proof.PrefixRead
import proofs.«107403_j84928683311958_2_alg».proof.Proof.LibBlockDiagSums
import proofs.«107403_j84928683311958_2_alg».proof.Proof.Spec

noncomputable section

namespace Cert.KernelIdeal.EdgeMlp

open Cert.KernelIdeal Cert.KernelIdeal.Gen Idealize.ShloMosaic
open Idealize.ShloMosaic.ValueIdx

/-- One term of a first-layer product: the h-th half of packed row `r` is row `2r + h`, and the stretch of W1 starting at
    row `o` read at (k', kk) is W1 at (o + k', kk). -/
theorem stretch_term (x : FVec Ideal S640000x64 .f32) (W1 : FVec Ideal S192x64 .f32) (o : ℕ)
    (ho : S192x64.Slices ![o, 0] S64x64) (row : Fin 64 → Fin 192) (hrow : ∀ k', (row k').val = o + k'.val)
    (r : Fin 320000) (h : Fin 2) (kk k' : Fin 64) :
    packRows x (ix2 r (⟨h.val * 64 + k'.val, by omega⟩ : Fin 128)) * extractStridedSlice S64x64 ![o, 0] W1 ho (ix2 k' kk)
      = x (ix2 (⟨2 * r.val + h.val, by omega⟩ : Fin 640000) k') * W1 (ix2 (row k') kk) := by
  rw [packRows_apply, slice2_axis0_apply o W1 ho k' kk (row k') (hrow k')]

/-- One first-layer product at lane `h * 64 + kk` of packed row `r`: the packed row against the block-diagonal matrix
    of the stretch of W1 starting at row `o` is row `2r + h` of the unpacked array against that stretch. -/
theorem stretch_eq (x : FVec Ideal S640000x64 .f32) (W1 : FVec Ideal S192x64 .f32) (o : ℕ)
    (ho : S192x64.Slices ![o, 0] S64x64) (row : Fin 64 → Fin 192) (hrow : ∀ k', (row k').val = o + k'.val)
    (r : Fin 320000) (h : Fin 2) (kk : Fin 64) :
    ∑ k' : Fin 128, packRows x (ix2 r k')
        * blockDiag (extractStridedSlice S64x64 ![o, 0] W1 ho) (ix2 k' (⟨h.val * 64 + kk.val, by omega⟩ : Fin 128))
      = ∑ k' : Fin 64, x (ix2 (⟨2 * r.val + h.val, by omega⟩ : Fin 640000) k') * W1 (ix2 (row k') kk) := by
  have key := BlockDiagSums.sum_mul_blockDiag (fun k' => packRows x (ix2 r k'))
    (fun k l => blockDiag (extractStridedSlice S64x64 ![o, 0] W1 ho) (ix2 k l))
    (fun k j => extractStridedSlice S64x64 ![o, 0] W1 ho (ix2 k j)) (blockDiag_diag _) (blockDiag_off _) h kk
  refine key.trans (Finset.sum_congr rfl fun k' _ => ?_)
  exact stretch_term x W1 o ho row hrow r h kk k'

/-- The packed output at packed row `r`, lane `h * 64 + j`, is the edge model at edge `2r + h`, feature `j`. -/
theorem packed_eq_model (src dest attr : FVec Ideal S640000x64 .f32) (W1 : FVec Ideal S192x64 .f32) (b1 : FVec Ideal S64 .f32)
    (W2 : FVec Ideal S64x64 .f32) (b2 : FVec Ideal S64 .f32) (r : Fin 320000) (h : Fin 2) (j : Fin 64) :
    packedOfArgs src dest attr W1 b1 W2 b2 (ix2 r (⟨h.val * 64 + j.val, by omega⟩ : Fin 128))
      = EdgeModel.out src dest attr W1 b1 W2 b2 (⟨2 * r.val + h.val, by omega⟩ : Fin 640000) j := by
  unfold packedOfArgs packedOut
  show packedAt _ _ _ _ _ _ _ _ _ r (⟨h.val * 64 + j.val, by omega⟩ : Fin 128) = _
  unfold packedAt EdgeModel.out
  refine congrArg₂ (· + ·) (congrArg₂ (· + ·) ?_ (twiceRow_apply b2 0 h j)) (packRows_apply attr r h j)
  have key := BlockDiagSums.sum_mul_blockDiag
    (fun k : Fin 128 =>
      max ((((∑ k' : Fin 128, packRows src (ix2 r k')
                * blockDiag (extractStridedSlice S64x64 ![0, 0] W1 slices_S192x64_S64x64_0_0) (ix2 k' k))
              + (∑ k' : Fin 128, packRows dest (ix2 r k')
                * blockDiag (extractStridedSlice S64x64 ![64, 0] W1 slices_S192x64_S64x64_64_0) (ix2 k' k)))
            + (∑ k' : Fin 128, packRows attr (ix2 r k')
                * blockDiag (extractStridedSlice S64x64 ![128, 0] W1 slices_S192x64_S64x64_128_0) (ix2 k' k)))
          + twiceRow b1 (ix2 (0 : Fin 1) k)) 0)
    (fun k l => blockDiag W2 (ix2 k l)) (fun k j => W2 (ix2 k j)) (blockDiag_diag W2) (blockDiag_off W2) h j
  refine key.trans (Finset.sum_congr rfl fun kk _ => ?_)
  refine congrArg (fun z => max z 0 * W2 (ix2 kk j)) ?_
  refine congrArg₂ (· + ·) (congrArg₂ (· + ·) (congrArg₂ (· + ·) ?_ ?_) ?_) (twiceRow_apply b1 0 h kk)
  · exact stretch_eq src W1 0 slices_S192x64_S64x64_0_0 (fun k' => ⟨k'.val, by omega⟩) (fun k' => (Nat.zero_add _).symm) r h kk
  · exact stretch_eq dest W1 64 slices_S192x64_S64x64_64_0 (fun k' => ⟨64 + k'.val, by omega⟩) (fun k' => rfl) r h kk
  · exact stretch_eq attr W1 128 slices_S192x64_S64x64_128_0 (fun k' => ⟨128 + k'.val, by omega⟩) (fun k' => rfl) r h kk

/-- The program's result — the packed output reshaped row-major to [640000, 64] — is the edge model at every edge and
    feature: row-major position e * 64 + j of the result is position (e / 2) * 128 + ((e % 2) * 64 + j) of the packed array. -/
theorem result_eq_model (src dest attr : FVec Ideal S640000x64 .f32) (W1 : FVec Ideal S192x64 .f32) (b1 : FVec Ideal S64 .f32)
    (W2 : FVec Ideal S64x64 .f32) (b2 : FVec Ideal S64 .f32) :
    shapeCast S640000x64 (packedOfArgs src dest attr W1 b1 W2 b2) shapeCasts_S320000x128_S640000x64
      = fun i => EdgeModel.out src dest attr W1 b1 W2 b2 (i 0) (i 1) := by
  funext i
  obtain ⟨e, j, rfl⟩ : ∃ (e : Fin 640000) (j : Fin 64), i = ix2 e j := ⟨i 0, i 1, eq_ix2 i⟩
  have he : e.val < 640000 := e.isLt
  refine (shapeCast_apply _ shapeCasts_S320000x128_S640000x64 (ix2 e j)
    (ix2 (⟨e.val / 2, by omega⟩ : Fin 320000) (⟨(⟨e.val % 2, by omega⟩ : Fin 2).val * 64 + j.val, by omega⟩ : Fin 128)) ?_).trans ?_
  · rw [Shape.rowMajor_val_two, Shape.rowMajor_val_two]
    show e.val / 2 * 128 + (e.val % 2 * 64 + j.val) = e.val * 64 + j.val
    omega
  · refine (packed_eq_model src dest attr W1 b1 W2 b2 ⟨e.val / 2, by omega⟩ ⟨e.val % 2, by omega⟩ j).trans ?_
    show EdgeModel.out src dest attr W1 b1 W2 b2 (⟨2 * (e.val / 2) + e.val % 2, _⟩ : Fin 640000) j = EdgeModel.out src dest attr W1 b1 W2 b2 e j
    exact congrArg (fun e' => EdgeModel.out src dest attr W1 b1 W2 b2 e' j) (Fin.ext (by show 2 * (e.val / 2) + e.val % 2 = e.val; omega))

end Cert.KernelIdeal.EdgeMlp

end
-- ==== Proof.KernelValue.lean ====
/-
  The kernel program's run with its result named: every weakly fair execution terminates with the result array holding
  the edge model of the argument arrays, edge by edge and feature by feature, and the arguments unchanged.
-/
import proofs.«107403_j84928683311958_2_alg».proof.Proof.KernelSide

noncomputable section

namespace Cert.KernelIdeal.EdgeMlp

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The result array ends at the edge model of the arguments as launched (the packed output reshaped, `result_eq_model`);
    each argument array ends as launched: no line before, in or after the region writes it. -/
theorem run : θ_run defs (onTc (τ := τ) (main (F := Ideal))) ⟨m, fun _ => 0, ρ⟩ fun r => ∀ c : Dev nD,
      r.2.mem ((c.tc : Thread nD τ).loc main_v31)
        = (fun i => EdgeModel.out (m ((c.tc : Thread nD τ).loc main_arg0)) (m ((c.tc : Thread nD τ).loc main_arg1))
            (m ((c.tc : Thread nD τ).loc main_arg2)) (m ((c.tc : Thread nD τ).loc main_arg5)) (m ((c.tc : Thread nD τ).loc main_arg6))
            (m ((c.tc : Thread nD τ).loc main_arg7)) (m ((c.tc : Thread nD τ).loc main_arg8)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(result_eq m r h c).trans (result_eq_model _ _ _ _ _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.EdgeMlp

end
-- ==== Proof.RefSide.lean ====
/-
  The reference is the edge model.
  Read one operation at a time at edge e, feature j: the residual add, the bias add, the second product as a sum over the
  64 hidden features, the maximum with the splatted zero, the first bias add, and the first product as a sum over the 192
  columns of [src | dest | attr], which splits into the three stretches of 64 where the concatenation reads src, dest
  and attr in turn.
-/
import proofs.«107403_j84928683311958_2_alg».proof.Proof.Gen.ReferenceIdeal.Read
import proofs.«107403_j84928683311958_2_alg».proof.Proof.LibConcatRead
import proofs.«107403_j84928683311958_2_alg».proof.Proof.LibBlockDiagSums
import proofs.«107403_j84928683311958_2_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic
open Idealize.ShloMosaic.ValueIdx

theorem lidx6_eq (e : Fin 640000) (j k : Fin 64) : lidx_main_v6 (ix2 e j) k = ix2 e k :=
  funext fun a => Fin.ext (by match a with | ⟨0, _⟩ => rfl | ⟨1, _⟩ => rfl)
theorem ridx6_eq (e : Fin 640000) (j k : Fin 64) : ridx_main_v6 (ix2 e j) k = ix2 k j :=
  funext fun a => Fin.ext (by match a with | ⟨0, _⟩ => rfl | ⟨1, _⟩ => rfl)
theorem lidx1_eq (e : Fin 640000) (k : Fin 64) (k' : Fin 192) : lidx_main_v1 (ix2 e k) k' = ix2 e k' :=
  funext fun a => Fin.ext (by match a with | ⟨0, _⟩ => rfl | ⟨1, _⟩ => rfl)
theorem ridx1_eq (e : Fin 640000) (k : Fin 64) (k' : Fin 192) : ridx_main_v1 (ix2 e k) k' = ix2 k' k :=
  funext fun a => Fin.ext (by match a with | ⟨0, _⟩ => rfl | ⟨1, _⟩ => rfl)
theorem idx78_eq (e : Fin 640000) (j : Fin 64) : idx_main_v7 (idx_main_v8 (ix2 e j)) = ix1 j :=
  funext fun a => Fin.ext (by match a with | ⟨0, _⟩ => rfl)
theorem idx23_eq (e : Fin 640000) (j : Fin 64) : idx_main_v2 (idx_main_v3 (ix2 e j)) = ix1 j :=
  funext fun a => Fin.ext (by match a with | ⟨0, _⟩ => rfl)

/-- The first product at edge `e`, hidden feature `k`: the three stretches of the concatenated row. -/
theorem first_product (x0 x1 x2 : FVec Ideal S640000x64 .f32) (x5 : FVec Ideal S192x64 .f32) (e : Fin 640000) (k : Fin 64) :
    val_main_v1 (F := Ideal) x0 x1 x2 x5 (ix2 e k)
      = ((∑ k' : Fin 64, x0 (ix2 e k') * x5 (ix2 (⟨k'.val, by omega⟩ : Fin 192) k))
          + (∑ k' : Fin 64, x1 (ix2 e k') * x5 (ix2 (⟨64 + k'.val, by omega⟩ : Fin 192) k)))
        + (∑ k' : Fin 64, x2 (ix2 e k') * x5 (ix2 (⟨128 + k'.val, by omega⟩ : Fin 192) k)) := by
  rw [val_main_v1_apply]
  simp only [lidx1_eq, ridx1_eq]
  refine (BlockDiagSums.sum_three_stretches _).trans ?_
  unfold val_main_v0
  refine congrArg₂ (· + ·) (congrArg₂ (· + ·) ?_ ?_) ?_
  · refine Finset.sum_congr rfl fun k' _ => congrArg (· * x5 (ix2 (⟨k'.val, by omega⟩ : Fin 192) k)) ?_
    exact concat3_cols_first x0 x1 x2 _ e k' _ rfl
  · refine Finset.sum_congr rfl fun k' _ => congrArg (· * x5 (ix2 (⟨64 + k'.val, by omega⟩ : Fin 192) k)) ?_
    exact concat3_cols_second x0 x1 x2 _ e k' _ rfl
  · refine Finset.sum_congr rfl fun k' _ => congrArg (· * x5 (ix2 (⟨128 + k'.val, by omega⟩ : Fin 192) k)) ?_
    exact concat3_cols_third x0 x1 x2 _ e k' _ rfl

/-- The reference's result is the edge model at every edge and feature. -/
theorem result_eq_model (x0 x1 x2 : FVec Ideal S640000x64 .f32) (x5 : FVec Ideal S192x64 .f32) (x6 : FVec Ideal S64 .f32)
    (x7 : FVec Ideal S64x64 .f32) (x8 : FVec Ideal S64 .f32) :
    val_main_v10 (F := Ideal) x0 x1 x2 x5 x6 x7 x8 = fun i => EdgeModel.out x0 x1 x2 x5 x6 x7 x8 (i 0) (i 1) := by
  funext i
  obtain ⟨e, j, rfl⟩ : ∃ (e : Fin 640000) (j : Fin 64), i = ix2 e j := ⟨i 0, i 1, eq_ix2 i⟩
  rw [val_main_v10_apply, val_main_v9_apply, val_main_v6_apply, val_main_v8_apply, val_main_v7_apply, idx78_eq]
  show (_ + _) + _ = EdgeModel.out x0 x1 x2 x5 x6 x7 x8 e j
  unfold EdgeModel.out
  refine congrArg (· + x2 (ix2 e j)) (congrArg (· + x8 (ix1 j)) (Finset.sum_congr rfl fun k _ => ?_))
  rw [lidx6_eq, ridx6_eq, val_main_v5_apply, val_main_v4_apply, val_main_call0_v0_apply, val_main_call0_cst_apply,
    val_main_v3_apply, val_main_v2_apply, idx23_eq, first_product]
  show max (_ + _) (Ideal.ofBits .f32 0x00000000#32) * _ = _
  rw [Ideal.ofBits_zero_f32]

end Cert.ReferenceIdeal.RefValue

end
-- ==== Proof.lean ====
/-
  An edge model of a graph network: for each of 640000 edges, the 64-feature rows of the source node, the destination
  node and the edge are concatenated, sent through Linear(192, 64), a maximum with zero, Linear(64, 64), and the edge's own
  row is added back.

  The kernel packs two consecutive edges into one 128-lane row (a row-major reshape), replaces each weight matrix by the
  128 x 128 matrix carrying it on both diagonal 64 x 64 blocks and zeros elsewhere, doubles the bias rows, and computes
  the first layer as the sum of three products instead of one product with the concatenation; after the pallas_call the
  packed result is reshaped back. On the extended reals the two programs are one function of the arguments:

    * lane h * 64 + j of packed row r belongs to edge 2r + h, and against a block-diagonal matrix only the h-th half of
      the packed row contributes to it (x * 0 = 0 for every extended real x, so the zero blocks drop out without any
      finiteness assumption);
    * a sum over the 192 concatenated columns is the sum over its three stretches of 64 (associativity and
      commutativity of addition only);
    * the changes of float format are the identity, and the maximum with zero is the same operation on both sides.

  The three frames are the generated ones (the reference's: its generated run with the result dropped); the ideal pass
  rewrote nothing, so the idealization claim is trivial; the value claim sets the two runs side by side at the edge
  model (Proof/Spec.lean).
-/
import proofs.«107403_j84928683311958_2_alg».proof.Defs
import proofs.«107403_j84928683311958_2_alg».proof.Proof.Gen.Kernel
import proofs.«107403_j84928683311958_2_alg».proof.Proof.Gen.Kernel.Frame
import proofs.«107403_j84928683311958_2_alg».proof.Proof.Gen.KernelIdeal
import proofs.«107403_j84928683311958_2_alg».proof.Proof.Gen.KernelIdeal.Frame
import proofs.«107403_j84928683311958_2_alg».proof.Proof.Gen.ReferenceIdeal
import proofs.«107403_j84928683311958_2_alg».proof.Proof.Gen.Pre_finite_inputs
import proofs.«107403_j84928683311958_2_alg».proof.Proof.Gen.ReferenceIdeal.Run
import proofs.«107403_j84928683311958_2_alg».proof.Proof.Gen.ReferenceIdeal.Read
import proofs.«107403_j84928683311958_2_alg».proof.Proof.KernelValue
import proofs.«107403_j84928683311958_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the edge model of arguments that agree. -/
theorem algebraic : Cert.algebraic_KernelIdeal_ReferenceIdeal := by
  intro m ρ m' ρ' _ hagree
  refine ⟨_, Cert.KernelIdeal.EdgeMlp.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq_model,
    (hagree c).1, (hagree c).2.1, (hagree c).2.2.1, (hagree c).2.2.2.2.2.1, (hagree c).2.2.2.2.2.2.1,
    (hagree c).2.2.2.2.2.2.2.1, (hagree c).2.2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
